-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x256x256 : Shape := ⟨4, ![1, 512, 256, 256]⟩
abbrev S512x512 : Shape := ⟨2, ![512, 512]⟩
abbrev S512 : Shape := ⟨1, ![512]⟩
abbrev S_ : Shape := ⟨0, ![]⟩

class Facts : Prop where
  bcast_S_S1x512x256x256 : S_.BroadcastsInDim S1x512x256x256 (![] : Fin 0 → Fin S1x512x256x256.rank)
  reducesTo_S1x512x256x256_S_d0_1_2_3 : S1x512x256x256.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S1x512x256x256 .f32) (main_arg1 : FVec F S512x512 .f32) (main_arg2 : IVec S512x512 1) (main_arg3 : FVec F S512 .f32) : IVec S_ 1 :=
  let main_v0 : FVec F S1x512x256x256 .f32 := Host.absf main_arg0
  let main_cst : FVec F S_ .f32 := constant S_ .f32 0x7F800000#32
  let main_v1 : FVec F S1x512x256x256 .f32 := broadcastInDim S1x512x256x256 ![] bcast_S_S1x512x256x256 main_cst
  let main_v2 : IVec S1x512x256x256 1 := cmpf .olt main_v0 main_v1
  let main_c : IVec S_ 1 := constantI S_ 1 1#1
  let main_v3 : IVec S_ 1 := (fun x v => Host.reduce IntOp.andi x v reducesTo_S1x512x256x256_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S1x512x256x256 : Shape := ⟨4, ![1, 512, 256, 256]⟩
abbrev S512x512 : Shape := ⟨2, ![512, 512]⟩
abbrev S512 : Shape := ⟨1, ![512]⟩
abbrev S_ : Shape := ⟨0, ![]⟩
abbrev S512x65536 : Shape := ⟨2, ![512, 65536]⟩
abbrev S512x1 : Shape := ⟨2, ![512, 1]⟩
abbrev S512x2048 : Shape := ⟨2, ![512, 2048]⟩

abbrev nBuf : Space → Nat
  | .hbm => 13
  | .vmem => 6
  | .smem => 0
  | _ => 0

abbrev bufTy : (tb : Table) → Fin (tcTables nBuf tb) → BufTy
  | .hbm, ⟨0, _⟩ => ⟨S1x512x256x256, .f32⟩
  | .hbm, ⟨1, _⟩ => ⟨S512x512, .f32⟩
  | .hbm, ⟨2, _⟩ => ⟨S512x512, .i1⟩
  | .hbm, ⟨3, _⟩ => ⟨S512, .f32⟩
  | .hbm, ⟨4, _⟩ => ⟨S_, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .bf16⟩
  | .hbm, ⟨9, _⟩ => ⟨S512x65536, .f32⟩
  | .hbm, ⟨10, _⟩ => ⟨S512x1, .f32⟩
  | .hbm, ⟨11, _⟩ => ⟨S512x65536, .f32⟩
  | .hbm, ⟨12, _⟩ => ⟨S1x512x256x256, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x1, .f32⟩
  | .local _ .vmem, ⟨4, _⟩ => ⟨S512x2048, .f32⟩
  | .local _ .vmem, ⟨5, _⟩ => ⟨S512x2048, .f32⟩
  | _, _ => ⟨S1x512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S512x512 : S_.BroadcastsInDim S512x512 (![] : Fin 0 → Fin S512x512.rank)
  bitsLt_bf16_f32 : FTy.bits .bf16 < FTy.bits .f32
  shapeCasts_S1x512x256x256_S512x65536 : S1x512x256x256.ShapeCasts S512x65536
  shapeCasts_S512_S512x1 : S512.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S512x65536_S1x512x256x256 : S512x65536.ShapeCasts S1x512x256x256
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x65536.size a
  hwx0_0 : ∀ i : grid0.Coords, EltTy.bits .f32 = 32 ∨ (Rect.block (s := S512x65536) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x65536.size a
  hwx0_3 : ∀ i : grid0.Coords, EltTy.bits .f32 = 32 ∨ (Rect.block (s := S512x65536) S512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x512x256x256 : Shape := ⟨4, ![1, 512, 256, 256]⟩
abbrev S512x512 : Shape := ⟨2, ![512, 512]⟩
abbrev S512 : Shape := ⟨1, ![512]⟩
abbrev S512x65536 : Shape := ⟨2, ![512, 65536]⟩
abbrev S_ : Shape := ⟨0, ![]⟩
abbrev S512x1 : Shape := ⟨2, ![512, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x512x256x256, .f32⟩
  | .hbm, ⟨1, _⟩ => ⟨S512x512, .f32⟩
  | .hbm, ⟨2, _⟩ => ⟨S512x512, .i1⟩
  | .hbm, ⟨3, _⟩ => ⟨S512, .f32⟩
  | .hbm, ⟨4, _⟩ => ⟨S512x65536, .f32⟩
  | .hbm, ⟨5, _⟩ => ⟨S_, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x65536, .f32⟩
  | .hbm, ⟨10, _⟩ => ⟨S512x1, .f32⟩
  | .hbm, ⟨11, _⟩ => ⟨S512x65536, .f32⟩
  | .hbm, ⟨12, _⟩ => ⟨S512x65536, .f32⟩
  | .hbm, ⟨13, _⟩ => ⟨S_, .f32⟩
  | .hbm, ⟨14, _⟩ => ⟨S512x65536, .f32⟩
  | .hbm, ⟨15, _⟩ => ⟨S512x65536, .f32⟩
  | .hbm, ⟨16, _⟩ => ⟨S1x512x256x256, .f32⟩
  | _, _ => ⟨S1x512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  shapeCasts_S1x512x256x256_S512x65536 : S1x512x256x256.ShapeCasts S512x65536
  bcast_S_S512x512 : S_.BroadcastsInDim S512x512 (![] : Fin 0 → Fin S512x512.rank)
  bcast_S512_S512x1_0 : S512.BroadcastsInDim S512x1 (![0] : Fin 1 → Fin S512x1.rank)
  bcast_S512x1_S512x65536_0_1 : S512x1.BroadcastsInDim S512x65536 (![0, 1] : Fin 2 → Fin S512x65536.rank)
  bcast_S_S512x65536 : S_.BroadcastsInDim S512x65536 (![] : Fin 0 → Fin S512x65536.rank)
  shapeCasts_S512x65536_S1x512x256x256 : S512x65536.ShapeCasts S1x512x256x256
  dot_S512x512_S512x65536_S512x65536_1_0_0_1_n_n_wf : DotDims.WF S512x512 S512x65536 S512x65536 [1] [0] [0] [1] [] []

variable [Facts₀]

def dot_S512x512_S512x65536_S512x65536_1_0_0_1_n_n : DotDims S512x512 S512x65536 S512x65536 where
  lhsContracting := [1]
  rhsContracting := [0]
  lhsNonContracting := [0]
  rhsNonContracting := [1]
  lhsBatch := []
  rhsBatch := []
  wf := dot_S512x512_S512x65536_S512x65536_1_0_0_1_n_n_wf

class Facts : Prop extends Facts₀ where

variable [Facts]
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.Spec.lean ====
/-
  The function both programs compute, on the flattened layout.

  With the 512 input channels as rows and the 256 × 256 = 65536 pixels as columns, the activations are a matrix
  `X : [512, 65536]`, the weights a matrix `Kw : [512, 512]` (filter by channel) and the bias a vector `b : [512]`
  (one number per filter). The result at filter `p` and pixel `n` is

      max (Σ_{f < 512} Kw (p, f) · X (f, n) + b p) 0

  — a 1 × 1 convolution written as a matrix product, a per-filter bias, and a rectifier. The weights that enter are the
  given ones with every entry outside the mask replaced by zero; the activations are the `[1, 512, 256, 256]` input read
  in row-major order; the result is read back in row-major order as `[1, 512, 256, 256]`.
-/
import Idealize.ShloMosaic.Lib.ValueIdx
import Idealize.ShloMosaic.PureOps.Ideal.Laws

open scoped BigOperators

noncomputable section

namespace Cert.Spmm

open Idealize.ShloMosaic Idealize.ShloMosaic.ValueIdx

/-- Filters by channels. -/
abbrev SK : Shape := ⟨2, ![512, 512]⟩
/-- Channels (or filters) by pixels. -/
abbrev SX : Shape := ⟨2, ![512, 65536]⟩
/-- One entry per filter. -/
abbrev SB : Shape := ⟨1, ![512]⟩
/-- The image layout: batch, channel, row, column. -/
abbrev SI : Shape := ⟨4, ![1, 512, 256, 256]⟩
/-- A scalar. -/
abbrev S0 : Shape := ⟨0, ![]⟩

/-- The product of the weights with the activations, plus the filter's bias, rectified: at `(p, n)` the sum over
    the channels `f` of `Kw (p, f) · X (f, n)`, plus `b p`, or zero if that is negative. -/
def dense (Kw : FVec Ideal SK .f32) (X : FVec Ideal SX .f32) (b : FVec Ideal SB .f32) : FVec Ideal SX .f32 :=
  fun i => max ((∑ f : Fin 512, Kw (ix2 (i 0) f) * X (ix2 f (i 1))) + b (ix1 (i 0))) (Ideal.ofBits .f32 0x00000000#32)

/-- The weights with every entry outside the mask replaced by zero. -/
def masked (w : FVec Ideal SK .f32) (msk : IVec SK 1) : FVec Ideal SK .f32 :=
  select msk w (broadcastInDim SK ![] (by decide) (constant (F := Ideal) S0 .f32 0x00000000#32))

/-- The image read in row-major order as channels by pixels. -/
def flat (x : FVec Ideal SI .f32) : FVec Ideal SX .f32 := shapeCast SX x (by decide)

/-- Filters by pixels read in row-major order as an image. -/
def unflat (y : FVec Ideal SX .f32) : FVec Ideal SI .f32 := shapeCast SI y (by decide)

/-- The whole result, as a function of the four arguments. -/
def result (x : FVec Ideal SI .f32) (w : FVec Ideal SK .f32) (msk : IVec SK 1) (b : FVec Ideal SB .f32) : FVec Ideal SI .f32 :=
  unflat (dense (masked w msk) (flat x) b)

end Cert.Spmm

end
-- ==== Proof.Body.lean ====
/-
  What one launch of the kernel body stores, read at an entry.

  The body loads a `[512, 2048]` tile of activations `x0`, the whole `[512, 512]` weight matrix `x1` and the
  `[512, 1]` bias column `x2`, and stores `max (x1 · x0 + x2, 0)`: at row `p` and column `q` of the tile that is the
  sum over the channels `f` of `x1 (p, f) · x0 (f, q)`, plus `x2 (p, 0)`, rectified. The narrowing of the tile to a
  shorter float format before the product is the identity on the extended reals, the casts to the same shape are
  identities, the product starts from the zero matrix, and the column is broadcast along its row.
-/
import proofs.«110866_j58188216926912_2_alg».proof.Proof.Gen.KernelIdeal.Skeleton
import proofs.«110866_j58188216926912_2_alg».proof.Proof.LibMatmul
import proofs.«110866_j58188216926912_2_alg».proof.Proof.LibColumns
import proofs.«110866_j58188216926912_2_alg».proof.Proof.Spec
import Idealize.ShloMosaic.Lib.Pipeline.Value
import Idealize.ShloMosaic.Lib.ValueIdx

open scoped BigOperators

noncomputable section

namespace Cert.KernelIdeal.Body

open Idealize.ShloMosaic Idealize.ShloMosaic.ValueIdx Cert.KernelIdeal Cert.KernelIdeal.Gen

/-- The product's dimension record is the plain one: left operand contracted on its second axis, right operand on
    its first, no batch axis. -/
theorem dims_plain : dot_S512x512_S512x2048_S512x2048_1_0_0_1_n_n = DotDims.plain 512 512 2048 := rfl

/-- The stored tile at `(p, q)`. -/
theorem pay_apply (x0 : Vec Ideal S512x2048 .f32) (x1 : Vec Ideal S512x512 .bf16) (x2 : Vec Ideal S512x1 .f32)
    (p : Fin 512) (q : Fin 2048) :
    k0_pay1 (F := Ideal) x0 x1 x2 (ix2 p q)
      = max ((∑ f : Fin 512, x1 (ix2 p f) * x0 (ix2 f q)) + x2 (ix2 p (0 : Fin 1))) (Ideal.ofBits .f32 0x00000000#32) := by
  unfold k0_pay1
  rw [maximumf_apply, addf_apply, broadcast_apply, shapeCast_self, shapeCast_self, shapeCast_self, dims_plain,
    Cert.Lib.Matmul.matmul_plain_zero_apply, Cert.Lib.Columns.broadcastTo_a1_ab_apply]
  rfl

/-- A stored tile as a piece of the whole result: if the activation tile is columns of `X` (column `j 1` of the
    tile being column `i 1` of `X`), the weights are `Kw` and the bias column lists `b`, then the stored entry at
    `j` is the whole product's entry at `i`, provided `i` and `j` are in the same row. -/
theorem tile_eq (x0 : Vec Ideal S512x2048 .f32) (x1 : Vec Ideal S512x512 .bf16) (x2 : Vec Ideal S512x1 .f32)
    (Kw : FVec Ideal Cert.Spmm.SK .f32) (X : FVec Ideal Cert.Spmm.SX .f32) (b : FVec Ideal Cert.Spmm.SB .f32)
    (j : S512x2048.Idx) (i : Cert.Spmm.SX.Idx)
    (h0 : ∀ f : Fin 512, x0 (ix2 f (j 1)) = X (ix2 f (i 1)))
    (h1 : ∀ f : Fin 512, x1 (ix2 (j 0) f) = Kw (ix2 (i 0) f))
    (h2 : x2 (ix2 (j 0) (0 : Fin 1)) = b (ix1 (i 0))) :
    k0_pay1 (F := Ideal) x0 x1 x2 j = Cert.Spmm.dense Kw X b i := by
  obtain ⟨p, q, rfl⟩ : ∃ (p : Fin 512) (q : Fin 2048), j = ix2 p q := ⟨j 0, j 1, eq_ix2 j⟩
  have h0' : ∀ f : Fin 512, x0 (ix2 f q) = X (ix2 f (i 1)) := h0
  have h1' : ∀ f : Fin 512, x1 (ix2 p f) = Kw (ix2 (i 0) f) := h1
  have h2' : x2 (ix2 p (0 : Fin 1)) = b (ix1 (i 0)) := h2
  rw [pay_apply, h2']
  simp only [h0', h1']
  rfl

end Cert.KernelIdeal.Body

end
-- ==== Proof.Entry.lean ====
/-
  What the three staged arrays hold when the kernel is launched.

  Before the launch the host masks the weights (an entry outside the mask becomes zero) and narrows them to a shorter
  float format — the identity on the extended reals —, reads the image in row-major order as channels by pixels, and
  reads the bias vector as a column. So the launch finds the masked weights, the flattened image, and a column whose
  entry in row `p` is the bias of filter `p`.
-/
import proofs.«110866_j58188216926912_2_alg».proof.Proof.Gen.KernelIdeal.Frame
import proofs.«110866_j58188216926912_2_alg».proof.Proof.Spec
import proofs.«110866_j58188216926912_2_alg».proof.Proof.LibColumns
import Idealize.ShloMosaic.Lib.StableHlo.Run

noncomputable section

namespace Cert.KernelIdeal.Entry

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The weight window's array: the masked weights. -/
theorem weights (c : Dev nD) :
    (V m c main_v1 : S512x512.Idx → EReal)
      = Cert.Spmm.masked (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- The activation window's array: the image, flattened. -/
theorem acts (c : Dev nD) :
    (V m c main_v2 : S512x65536.Idx → EReal) = Cert.Spmm.flat (m ((c : Thread nD τ).loc main_arg0)) := by
  dsimp only [Gen.V, Gen.V0]
  simp only [Gen.hostOps0, Gen.hostOps0_1, Gen.hostOps0_2, List.flatten_cons, List.flatten_nil, List.append_nil,
    List.cons_append, List.nil_append]
  after_results
  rfl

/-- The bias window's array, as the bias vector recast as a column. -/
theorem biasCol (c : Dev nD) :
    (V m c main_v3 : S512x1.Idx → EReal)
      = shapeCast S512x1 (m ((c : Thread nD τ).loc main_arg3)) shapeCasts_S512_S512x1 := by
  dsimp only [Gen.V, Gen.V0]
  simp only [Gen.hostOps0, Gen.hostOps0_1, Gen.hostOps0_2, List.flatten_cons, List.flatten_nil, List.append_nil,
    List.cons_append, List.nil_append]
  after_results
  rfl

/-- Row `p` of that column is the bias of filter `p`. -/
theorem biasCol_apply (c : Dev nD) (p : Fin 512) (u : Fin 1) :
    (V m c main_v3 : S512x1.Idx → EReal) (ix2 p u) = m ((c : Thread nD τ).loc main_arg3) (ix1 p) := by
  rw [biasCol]
  exact Cert.Lib.Columns.shapeCast_a_a1_apply _ _ p u

end Cert.KernelIdeal.Entry

end
-- ==== Proof.Blocks.lean ====
/-
  From the 32 launches to the whole output array.

  The grid has 2 × 16 = 32 points; point `t` is given columns `[2048 t, 2048 t + 2048)` of the flattened image (all 512
  rows), the whole weight matrix and the whole bias column, and writes back columns `[2048 t, 2048 t + 2048)` of the
  output (all 512 rows). So what point `t` writes is exactly block `t` of ONE matrix — `dense` of the masked weights,
  the flattened image and the bias —, the 32 blocks partition the 65536 columns (column `n` lies in block `n / 2048`),
  and after the last point the output array is that matrix.
-/
import proofs.«110866_j58188216926912_2_alg».proof.Proof.Gen.KernelIdeal.Frame
import proofs.«110866_j58188216926912_2_alg».proof.Proof.Body
import proofs.«110866_j58188216926912_2_alg».proof.Proof.Entry
import proofs.«110866_j58188216926912_2_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zeros : (![0, 0] : Fin 2 → Nat) = fun _ => 0 := funext fun a => by fin_cases a <;> rfl

/-- The matrix the output array ends holding, over the arrays as the launch finds them. -/
abbrev target (c : Dev nD) : S512x65536.Idx → EReal :=
  Cert.Spmm.dense (V m c main_v1) (V m c main_v2) (m ((c : Thread nD τ).loc main_arg3))

/-- The block indices at point `t`, decided over the 32 points: the activation and output windows are at block
    column `t` (block row 0), the weight and bias windows stay at block (0, 0). -/
theorem idx_facts : ∀ t : Fin cfg0.N,
    win0_3.index t (0 : Fin 2) = 0 ∧ win0_3.index t (1 : Fin 2) = t.val
    ∧ win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point `t` writes back is block `t` of `target`. -/
theorem flushed_eq (c : Dev nD) (t : Fin cfg0.N) :
    (dats m 0 c).flushed 3 t = ((cfg0.win 3).blk t).view.read (Elt Ideal) (target m c) := by
  show (cfg0.win 3).cut (grid0.coords t) ((dats m 0 c).after 3 t) = _
  rw [after0_3]
  unfold out0_3
  rw [View.canon_unit_zero zeros]
  simp only [View.ld_unit_zero (S := S512x2048) zeros, View.ld_unit_zero (S := S512x512) zeros,
    View.ld_unit_zero (S := S512x1) zeros]
  obtain ⟨a0, a1, b0, b1, c0, c1, d0, d1⟩ := idx_facts t
  funext j
  refine Cert.KernelIdeal.Body.tile_eq (iblk m c 0 t) (iblk m c 1 t) (iblk m c 2 t) (V m c main_v1) (V m c main_v2)
    (m ((c : Thread nD τ).loc main_arg3)) j (((cfg0.win 3).blk t).view.emb j) ?_ ?_ ?_
  · intro f
    show V m c main_v2 (((cfg0.win 0).blk t).view.emb (ix2 f (j 1))) = V m c main_v2 (ix2 f ((((cfg0.win 3).blk t).view.emb j) 1))
    refine congrArg _ (funext fun a => Fin.ext ?_)
    match a with
    | ⟨0, _⟩ => show win0_0.index t (0 : Fin 2) * 512 + 1 * f.val = f.val; omega
    | ⟨1, _⟩ => show win0_0.index t (1 : Fin 2) * 2048 + 1 * (j 1).val = win0_3.index t (1 : Fin 2) * 2048 + 1 * (j 1).val; omega
  · intro f
    show V m c main_v1 (((cfg0.win 1).blk t).view.emb (ix2 (j 0) f)) = V m c main_v1 (ix2 ((((cfg0.win 3).blk t).view.emb j) 0) f)
    refine congrArg _ (funext fun a => Fin.ext ?_)
    match a with
    | ⟨0, _⟩ => show win0_1.index t (0 : Fin 2) * 512 + 1 * (j 0).val = win0_3.index t (0 : Fin 2) * 512 + 1 * (j 0).val; omega
    | ⟨1, _⟩ => show win0_1.index t (1 : Fin 2) * 512 + 1 * f.val = f.val; omega
  · show V m c main_v3 (((cfg0.win 2).blk t).view.emb (ix2 (j 0) (0 : Fin 1))) = _
    have e : ((cfg0.win 2).blk t).view.emb (ix2 (j 0) (0 : Fin 1)) = ix2 ((((cfg0.win 3).blk t).view.emb j) 0) (0 : Fin 1) :=
      funext fun a => Fin.ext (by
        match a with
        | ⟨0, _⟩ => show win0_2.index t (0 : Fin 2) * 512 + 1 * (j 0).val = win0_3.index t (0 : Fin 2) * 512 + 1 * (j 0).val; omega
        | ⟨1, _⟩ => show win0_2.index t (1 : Fin 2) * 1 + 1 * 0 = 0; omega)
    rw [e]
    exact Cert.KernelIdeal.Entry.biasCol_apply m c _ _

/-- An index of the output array is in point `t`'s block iff each coordinate is in the block's range on its axis. -/
theorem mem_blk (t : Fin cfg0.N) (i : S512x65536.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v4).slice (win0_3.rect t)).set ↔ _
  rw [View.set_slice_whole, Rect.mem_set_unit]
  exact Iff.rfl

/-- Every entry of the output array is in some point's block: column `n` is in block `n / 2048`. -/
theorem cover (i : S512x65536.Idx) : ∃ t : Fin cfg0.N, (cfg0.win 3).flush t = true ∧ i ∈ ((cfg0.win 3).blk t).view.set := by
  have h0 : (i 0).val < 512 := (i 0).isLt
  have h1 : (i 1).val < 65536 := (i 1).isLt
  have ht : (i 1).val / 2048 < cfg0.N := by show _ < grid0.N; rw [N_0]; omega
  obtain ⟨a0, a1, -⟩ := idx_facts ⟨(i 1).val / 2048, ht⟩
  have a1' : win0_3.index ⟨(i 1).val / 2048, ht⟩ (1 : Fin 2) = (i 1).val / 2048 := a1
  refine ⟨⟨(i 1).val / 2048, ht⟩, flush0_3 _, ?_⟩
  rw [mem_blk]
  intro a
  match a with
  | ⟨0, _⟩ => show win0_3.index ⟨(i 1).val / 2048, ht⟩ (0 : Fin 2) * 512 ≤ (i 0).val ∧ (i 0).val < win0_3.index ⟨(i 1).val / 2048, ht⟩ (0 : Fin 2) * 512 + 512; omega
  | ⟨1, _⟩ => show win0_3.index ⟨(i 1).val / 2048, ht⟩ (1 : Fin 2) * 2048 ≤ (i 1).val ∧ (i 1).val < win0_3.index ⟨(i 1).val / 2048, ht⟩ (1 : Fin 2) * 2048 + 2048; omega

/-- The output array after the last point: `dense` of the masked weights, the flattened image and the bias. -/
theorem final (c : Dev nD) :
    ((dats m 0 c).arrAt 3 cfg0.N : S512x65536.Idx → EReal)
      = Cert.Spmm.dense (Cert.Spmm.masked (m ((c : Thread nD τ).loc main_arg1)) (m ((c : Thread nD τ).loc main_arg2)))
          (Cert.Spmm.flat (m ((c : Thread nD τ).loc main_arg0))) (m ((c : Thread nD τ).loc main_arg3)) := by
  rw [(dats m 0 c).arrAt_eq_of_cover 3 (target m c) (fun t _ => flushed_eq m c t) cover]
  unfold target
  rw [Cert.KernelIdeal.Entry.weights, Cert.KernelIdeal.Entry.acts]

end Cert.KernelIdeal.Blocks

end
-- ==== Proof.Whole.lean ====
/-
  The kernel's run, read as a function of the arguments.

  After the 32 launches the host reads the output matrix back in row-major order as an image; nothing else is written.
  So the program ends with its result at the specification's function of the four arguments, and the arguments as they
  were.
-/
import proofs.«110866_j58188216926912_2_alg».proof.Proof.Gen.KernelIdeal.Frame
import proofs.«110866_j58188216926912_2_alg».proof.Proof.Blocks
import proofs.«110866_j58188216926912_2_alg».proof.Proof.Spec
import Idealize.ShloMosaic.Lib.StableHlo.Run

noncomputable section

namespace Cert.KernelIdeal.Whole

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- What the line after the launches leaves in the result buffer: the output matrix read back as an image. -/
theorem tail_eq (c : Dev nD) :
    (Pipeline.afterTail₀ cfgs (dats m) 0 (V0 m) [hostOps1] c main_v5 : S1x512x256x256.Idx → EReal)
      = Cert.Spmm.result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  show shapeCast S1x512x256x256
      (Pipeline.withArrays spec0 c (V0 m c) (fun w => (dats m 0 c).arrAt w cfg0.N) (Proc.devRef .tc (Pipeline.arrRef spec0 3)))
      shapeCasts_S512x65536_S1x512x256x256 = _
  rw [Pipeline.withArrays_arr spec0 launch0.win.arr_inj c (V0 m c) (fun w => (dats m 0 c).arrAt w cfg0.N) 3]
  exact congrArg (fun y : S512x65536.Idx → EReal => shapeCast S1x512x256x256 y shapeCasts_S512x65536_S1x512x256x256)
    (Cert.KernelIdeal.Blocks.final m c)

/-- Every weakly fair execution of the kernel's program ends with the result buffer at the specification's function of
    the arguments, and the arguments unchanged. -/
theorem run : θ_run defs (onTc (τ := τ) (main (F := Ideal))) ⟨m, fun _ => 0, ρ⟩ fun r => ∀ c : Dev nD,
      r.2.mem ((c.tc : Thread nD τ).loc main_v5)
        = Cert.Spmm.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference computes the same function.

  The reference masks the weights, flattens the image, takes ONE matrix product of the two, adds the bias broadcast along
  each filter's row (vector to column to matrix), takes the maximum with zero, and reads the result back as an image.
  Read at filter `p` and pixel `n`, the product is the sum over the channels of weight times activation, the
  broadcast bias is the bias of filter `p`, and the rectifier is the maximum with zero: the function `dense`.
-/
import proofs.«110866_j58188216926912_2_alg».proof.Proof.Gen.ReferenceIdeal.Read
import proofs.«110866_j58188216926912_2_alg».proof.Proof.Spec

open scoped BigOperators

noncomputable section

namespace Cert.ReferenceIdeal.RefValue

open Idealize.ShloMosaic Idealize.ShloMosaic.ValueIdx Cert.ReferenceIdeal Cert.ReferenceIdeal.Gen Cert.ReferenceIdeal.Read

/-- The reference's masked weights and flattened image are the specification's. -/
theorem weights_eq (x1 : (⟨S512x512, .f32⟩ : BufTy).Contents (Elt Ideal)) (x2 : (⟨S512x512, .i1⟩ : BufTy).Contents (Elt Ideal)) :
    val_main_v1 (F := Ideal) x1 x2 = Cert.Spmm.masked x1 x2 := rfl

theorem acts_eq (x0 : (⟨S1x512x256x256, .f32⟩ : BufTy).Contents (Elt Ideal)) :
    val_main_v0 (F := Ideal) x0 = Cert.Spmm.flat x0 := rfl

/-- Before the final reshape the reference holds `dense` of the masked weights, the flattened image and the bias. -/
theorem stage_eq (x0 : (⟨S1x512x256x256, .f32⟩ : BufTy).Contents (Elt Ideal)) (x1 : (⟨S512x512, .f32⟩ : BufTy).Contents (Elt Ideal))
    (x2 : (⟨S512x512, .i1⟩ : BufTy).Contents (Elt Ideal)) (x3 : (⟨S512, .f32⟩ : BufTy).Contents (Elt Ideal)) :
    val_main_v6 (F := Ideal) x0 x1 x2 x3 = Cert.Spmm.dense (Cert.Spmm.masked x1 x2) (Cert.Spmm.flat x0) x3 := by
  funext i
  have hl : ∀ k : Fin 512, lidx_main_v2 i k = ix2 (i 0) k := fun k => funext fun a => Fin.ext (by
    match a with | ⟨0, _⟩ => rfl | ⟨1, _⟩ => rfl)
  have hr : ∀ k : Fin 512, ridx_main_v2 i k = ix2 k (i 1) := fun k => funext fun a => Fin.ext (by
    match a with | ⟨0, _⟩ => rfl | ⟨1, _⟩ => rfl)
  have hb : idx_main_v3 (idx_main_v4 i) = ix1 (i 0) := funext fun a => Fin.ext (by
    match a with | ⟨0, _⟩ => rfl)
  rw [val_main_v6_apply, val_main_v5_apply, val_main_v2_apply, val_main_v4_apply, val_main_v3_apply,
    val_main_call1_v0_apply, val_main_call1_cst_apply, weights_eq, acts_eq]
  simp only [hl, hr, hb]
  rfl

/-- The reference's result is the specification's. -/
theorem result_eq (x0 : (⟨S1x512x256x256, .f32⟩ : BufTy).Contents (Elt Ideal)) (x1 : (⟨S512x512, .f32⟩ : BufTy).Contents (Elt Ideal))
    (x2 : (⟨S512x512, .i1⟩ : BufTy).Contents (Elt Ideal)) (x3 : (⟨S512, .f32⟩ : BufTy).Contents (Elt Ideal)) :
    val_main_v7 (F := Ideal) x0 x1 x2 x3 = Cert.Spmm.result x0 x1 x2 x3 := by
  unfold val_main_v7 Cert.Spmm.result Cert.Spmm.unflat
  rw [stage_eq]

end Cert.ReferenceIdeal.RefValue

end
-- ==== Proof.lean ====
/-
  A 1 × 1 convolution with masked weights, a per-filter bias and a rectifier, computed two ways.

  The input is an image `x : [1, 512, 256, 256]` (512 channels, 256 × 256 pixels), weights `w : [512, 512]` (filter by
  channel) with a 0/1 mask of the same shape, and a bias `b : [512]`. Reading the image in row-major order as a matrix
  `X : [512, 65536]` (channel by pixel) and writing `Kw` for the weights with every entry outside the mask replaced by
  zero, both programs compute, at filter `p` and pixel `n`,

      max (Σ_{f < 512} Kw (p, f) · X (f, n) + b p) 0,

  and read the `[512, 65536]` result back in row-major order as `[1, 512, 256, 256]`.

  The kernel cuts the 65536 pixels into 32 tiles of 2048 columns; one launch multiplies the whole weight matrix by one
  tile, adds the bias column broadcast along the rows, rectifies, and writes the tile of the output. It narrows both
  factors to a shorter float format before the product, which changes nothing on the extended reals. The reference takes
  one product of the whole matrices. Entry by entry the two are the same sum over the 512 channels, so the equality needs
  only a re-indexing of that sum: no distributivity or cancellation, and therefore nothing about the inputs being finite.

  The pieces: `Spec` states the function; `Body` reads one launch's stored tile at an entry; `Entry` says what the
  launches find in the three arrays they read; `Blocks` shows that the 32 written tiles are the blocks of one matrix and
  cover it; `Whole` carries that through the final read-back to the program's result; `RefValue` reads the reference's
  operations at an entry. The frames of the two kernel programs and the reference's run are the generated modules'.
  The idealized kernel is the kernel's own text read over the extended reals (no operation was rewritten), so there is
  nothing to show for that conjunct.
-/
import proofs.«110866_j58188216926912_2_alg».proof.Defs
import proofs.«110866_j58188216926912_2_alg».proof.Proof.Gen.Kernel
import proofs.«110866_j58188216926912_2_alg».proof.Proof.Gen.Kernel.Skeleton
import proofs.«110866_j58188216926912_2_alg».proof.Proof.Gen.Kernel.Launch
import proofs.«110866_j58188216926912_2_alg».proof.Proof.Gen.Kernel.Points
import proofs.«110866_j58188216926912_2_alg».proof.Proof.Gen.Kernel.Frame
import proofs.«110866_j58188216926912_2_alg».proof.Proof.Gen.KernelIdeal
import proofs.«110866_j58188216926912_2_alg».proof.Proof.Gen.KernelIdeal.Skeleton
import proofs.«110866_j58188216926912_2_alg».proof.Proof.Gen.KernelIdeal.Launch
import proofs.«110866_j58188216926912_2_alg».proof.Proof.Gen.KernelIdeal.Points
import proofs.«110866_j58188216926912_2_alg».proof.Proof.Gen.KernelIdeal.Frame
import proofs.«110866_j58188216926912_2_alg».proof.Proof.Gen.ReferenceIdeal
import proofs.«110866_j58188216926912_2_alg».proof.Proof.Gen.ReferenceIdeal.Run
import proofs.«110866_j58188216926912_2_alg».proof.Proof.Gen.ReferenceIdeal.Read
import proofs.«110866_j58188216926912_2_alg».proof.Proof.Gen.Pre_finite_inputs
import proofs.«110866_j58188216926912_2_alg».proof.Proof.Whole
import proofs.«110866_j58188216926912_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the four arguments, the kernel's program and the reference both end with their result
    at the specification's function of those arguments: the kernel by its 32 tiles, the reference by its one product. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v7_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
